-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x56x56x256 : Shape := ⟨4, ![32, 56, 56, 256]⟩
abbrev S256 : Shape := ⟨1, ![256]⟩
abbrev S_ : Shape := ⟨0, ![]⟩

class Facts : Prop where
  bcast_S_S32x56x56x256 : S_.BroadcastsInDim S32x56x56x256 (![] : Fin 0 → Fin S32x56x56x256.rank)
  reducesTo_S32x56x56x256_S_d0_1_2_3 : S32x56x56x256.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x56x56x256 .f32) (main_arg1 : FVec F S32x56x56x256 .f32) (main_arg2 : FVec F S256 .f32) (main_arg3 : FVec F S256 .f32) (main_arg4 : FVec F S256 .f32) : IVec S_ 1 :=
  let main_v0 : FVec F S32x56x56x256 .f32 := Host.absf main_arg0
  let main_cst : FVec F S_ .f32 := constant S_ .f32 0x7F800000#32
  let main_v1 : FVec F S32x56x56x256 .f32 := broadcastInDim S32x56x56x256 ![] bcast_S_S32x56x56x256 main_cst
  let main_v2 : IVec S32x56x56x256 1 := cmpf .olt main_v0 main_v1
  let main_c : IVec S_ 1 := constantI S_ 1 1#1
  let main_v3 : IVec S_ 1 := (fun x v => Host.reduce IntOp.andi x v reducesTo_S32x56x56x256_S_d0_1_2_3 h_S_) main_v2 main_c
  let main_v4 : FVec F S32x56x56x256 .f32 := Host.absf main_arg1
  let main_cst_0 : FVec F S_ .f32 := constant S_ .f32 0x7F800000#32
  let main_v5 : FVec F S32x56x56x256 .f32 := broadcastInDim S32x56x56x256 ![] bcast_S_S32x56x56x256 main_cst_0
  let main_v6 : IVec S32x56x56x256 1 := cmpf .olt main_v4 main_v5
  let main_c_1 : IVec S_ 1 := constantI S_ 1 1#1
  let main_v7 : IVec S_ 1 := (fun x v => Host.reduce IntOp.andi x v reducesTo_S32x56x56x256_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S32x56x56x256 : Shape := ⟨4, ![32, 56, 56, 256]⟩
abbrev S256 : Shape := ⟨1, ![256]⟩
abbrev S2x56x56x256 : Shape := ⟨4, ![2, 56, 56, 256]⟩
abbrev S1x1x1x256 : Shape := ⟨4, ![1, 1, 1, 256]⟩

abbrev nBuf : Space → Nat
  | .hbm => 6
  | .vmem => 9
  | .smem => 0
  | _ => 0

abbrev bufTy : (tb : Table) → Fin (tcTables nBuf tb) → BufTy
  | .hbm, ⟨0, _⟩ => ⟨S32x56x56x256, .f32⟩
  | .hbm, ⟨1, _⟩ => ⟨S32x56x56x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S32x56x56x256, .f32⟩
  | .local _ .vmem, ⟨0, _⟩ => ⟨S2x56x56x256, .f32⟩
  | .local _ .vmem, ⟨1, _⟩ => ⟨S2x56x56x256, .f32⟩
  | .local _ .vmem, ⟨2, _⟩ => ⟨S2x56x56x256, .f32⟩
  | .local _ .vmem, ⟨3, _⟩ => ⟨S2x56x56x256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S2x56x56x256, .f32⟩
  | .local _ .vmem, ⟨8, _⟩ => ⟨S2x56x56x256, .f32⟩
  | _, _ => ⟨S32x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x56x56x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x56x56x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x56x56x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S256_S256_0 : ∀ a, (![0] : Fin 1 → Nat) a + S256.size a ≤ S256.size a
  h_S256 : 0 < S256.numel
  inb_S2x56x56x256_S2x56x56x256_0_0_0_0 : ∀ a, (![0, 0, 0, 0] : Fin 4 → Nat) a + S2x56x56x256.size a ≤ S2x56x56x256.size a
  h_S2x56x56x256 : 0 < S2x56x56x256.numel
  shapeCasts_S256_S1x1x1x256 : S256.ShapeCasts S1x1x1x256
  broadcasts_S1x1x1x256_S2x56x56x256 : S1x1x1x256.Broadcasts S2x56x56x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x56x56x256.size a ≤ S32x56x56x256.size a
  hwx0_0 : ∀ i : grid0.Coords, EltTy.bits .f32 = 32 ∨ (Rect.block (s := S32x56x56x256) S2x56x56x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x56x56x256.size a ≤ S32x56x56x256.size a
  hwx0_1 : ∀ i : grid0.Coords, EltTy.bits .f32 = 32 ∨ (Rect.block (s := S32x56x56x256) S2x56x56x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x56x56x256.size a ≤ S32x56x56x256.size a
  hwx0_5 : ∀ i : grid0.Coords, EltTy.bits .f32 = 32 ∨ (Rect.block (s := S32x56x56x256) S2x56x56x256.size (cc0_transform_5 i) (hinb0_5 i)).WholeWords (EltTy.packing .f32)

variable [Facts₀]

abbrev win0_0 : Pipeline.Window sig grid0 :=
  Pipeline.Window.ofSpec (Memref.whole main_arg0) S2x56x56x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x56x56x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2x56x56x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x56x56x256 : Shape := ⟨4, ![32, 56, 56, 256]⟩
abbrev S256 : Shape := ⟨1, ![256]⟩
abbrev S1x1x1x256 : Shape := ⟨4, ![1, 1, 1, 256]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32x56x56x256, .f32⟩
  | .hbm, ⟨1, _⟩ => ⟨S32x56x56x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1x1x1x256, .f32⟩
  | .hbm, ⟨6, _⟩ => ⟨S32x56x56x256, .f32⟩
  | .hbm, ⟨7, _⟩ => ⟨S32x56x56x256, .f32⟩
  | .hbm, ⟨8, _⟩ => ⟨S1x1x1x256, .f32⟩
  | .hbm, ⟨9, _⟩ => ⟨S32x56x56x256, .f32⟩
  | .hbm, ⟨10, _⟩ => ⟨S32x56x56x256, .f32⟩
  | .hbm, ⟨11, _⟩ => ⟨S32x56x56x256, .f32⟩
  | .hbm, ⟨12, _⟩ => ⟨S1x1x1x256, .f32⟩
  | .hbm, ⟨13, _⟩ => ⟨S32x56x56x256, .f32⟩
  | .hbm, ⟨14, _⟩ => ⟨S32x56x56x256, .f32⟩
  | .hbm, ⟨15, _⟩ => ⟨S_, .f32⟩
  | .hbm, ⟨16, _⟩ => ⟨S32x56x56x256, .f32⟩
  | .hbm, ⟨17, _⟩ => ⟨S32x56x56x256, .f32⟩
  | _, _ => ⟨S32x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S32x56x56x256_0_1_2_3 : S1x1x1x256.BroadcastsInDim S32x56x56x256 (![0, 1, 2, 3] : Fin 4 → Fin S32x56x56x256.rank)
  bcast_S_S32x56x56x256 : S_.BroadcastsInDim S32x56x56x256 (![] : Fin 0 → Fin S32x56x56x256.rank)

variable [Facts₀]

class Facts : Prop extends Facts₀ where

variable [Facts]
-- ==== Proof.BiasedSum.lean ====
/-
  The function both programs compute.

  The data are two arrays x0, x1 over [32, 56, 56, 256] (batch, height, width, channel) and three per-channel
  vectors b0, b1, cb over [256]. At an index i = (n, h, w, ch) the result is

      max (((x0 i + b0 ch) + (x1 i + b1 ch)) + cb ch) 0 :

  each array shifted by its own per-channel bias, the two shifted arrays added, the shared bias added, and the
  negative part cut off. Both programs group the three sums in exactly this way and take the maximum against the
  same zero word, so the two results are the same term entry by entry: no law of addition is used, and nothing
  depends on the entries being finite. The function is therefore stated once for every reading of the floats.
-/
import Idealize.ShloMosaic.PureOps.Vector

noncomputable section

namespace Cert.BiasedSum

open Idealize.ShloMosaic

variable {F : FTy → Type} [FloatOps F]

/-- The arrays' shape: batch 32, height 56, width 56, 256 channels. -/
abbrev Arr : Shape := ⟨4, ![32, 56, 56, 256]⟩
/-- The shape of a per-channel vector. -/
abbrev Chan : Shape := ⟨1, ![256]⟩

/-- The channel an array index lies in, as an index of a per-channel vector: its last coordinate. -/
abbrev chanOf (i : Arr.Idx) : Chan.Idx := fun a => match a with
  | ⟨0, _⟩ => ⟨(i 3).val, (i 3).isLt⟩

/-- `relu ((x0 + b0) + (x1 + b1) + cb)`, entry by entry, each bias read at the entry's channel. -/
def biasedSumRelu (x0 x1 : Arr.Idx → F .f32) (b0 b1 cb : Chan.Idx → F .f32) : Arr.Idx → F .f32 := fun i =>
  FloatOps.maximumf
    (FloatOps.addf (FloatOps.addf (FloatOps.addf (x0 i) (b0 (chanOf i))) (FloatOps.addf (x1 i) (b1 (chanOf i)))) (cb (chanOf i)))
    (FloatOps.ofBits .f32 0x00000000#32)

theorem biasedSumRelu_apply (x0 x1 : Arr.Idx → F .f32) (b0 b1 cb : Chan.Idx → F .f32) (i : Arr.Idx) :
    biasedSumRelu x0 x1 b0 b1 cb i = FloatOps.maximumf
      (FloatOps.addf (FloatOps.addf (FloatOps.addf (x0 i) (b0 (chanOf i))) (FloatOps.addf (x1 i) (b1 (chanOf i)))) (cb (chanOf i)))
      (FloatOps.ofBits .f32 0x00000000#32) := rfl

end Cert.BiasedSum

end
-- ==== Proof.ReferenceValue.lean ====
/-
  The reference's result is the biased sum cut at zero.

  The reference spreads each per-channel vector over the array in two steps — [256] to [1, 1, 1, 256] along the last
  axis, then [1, 1, 1, 256] to [32, 56, 56, 256] along the three unit axes — so the spread array at (n, h, w, ch) is the
  vector at ch; it then adds the arrays in the order ((x0 + b0) + (x1 + b1)) + cb and takes the maximum with a zero
  spread from a scalar. Read at an index, stage by stage, that is `Cert.BiasedSum.biasedSumRelu` at that index.
-/
import proofs.«102683_j58737972740836_2_alg».proof.Proof.Gen.ReferenceIdeal.Read
import proofs.«102683_j58737972740836_2_alg».proof.Proof.BiasedSum

noncomputable section

namespace Cert.ReferenceIdeal.RefValue

open Cert.ReferenceIdeal Cert.ReferenceIdeal.Read Idealize.ShloMosaic Cert.BiasedSum

variable {F : FTy → Type} [FloatOps F]

/-- Through the two spreading steps, array index (n, h, w, ch) reads the first bias vector at ch. -/
theorem spread_b0 (i : S32x56x56x256.Idx) : idx_main_v0 (idx_main_v1 i) = chanOf i :=
  funext fun a => match a with | ⟨0, _⟩ => rfl

/-- The same for the second bias vector. -/
theorem spread_b1 (i : S32x56x56x256.Idx) : idx_main_v3 (idx_main_v4 i) = chanOf i :=
  funext fun a => match a with | ⟨0, _⟩ => rfl

/-- The same for the shared bias vector. -/
theorem spread_cb (i : S32x56x56x256.Idx) : idx_main_v7 (idx_main_v8 i) = chanOf i :=
  funext fun a => match a with | ⟨0, _⟩ => rfl

/-- The reference's last stage, as a function of the five arguments, is the biased sum cut at zero. -/
theorem result_eq (x0 x1 : (⟨S32x56x56x256, .f32⟩ : BufTy).Contents (Elt F)) (x2 x3 x4 : (⟨S256, .f32⟩ : BufTy).Contents (Elt F)) :
    val_main_v10 (F := F) x0 x1 x2 x3 x4 = biasedSumRelu (F := F) x0 x1 x2 x3 x4 := by
  funext i
  rw [val_main_v10_apply, val_main_v9_apply, val_main_v6_apply, val_main_v2_apply, val_main_v5_apply,
    val_main_v1_apply, val_main_v0_apply, val_main_v4_apply, val_main_v3_apply, val_main_v8_apply, val_main_v7_apply,
    val_main_call0_v0_apply, val_main_call0_cst_apply, spread_b0, spread_b1, spread_cb]
  rfl

end Cert.ReferenceIdeal.RefValue

end
-- ==== Proof.KernelBlock.lean ====
/-
  What one grid step leaves in its output block.

  A grid step holds a [2, 56, 56, 256] block of each array and the three whole per-channel vectors. The body turns each
  vector into a [1, 1, 1, 256] row and spreads it over the block, so the spread block at (n, h, w, ch) is the vector at
  ch; it adds in the order ((x0 + b0) + (x1 + b1)) + cb, takes the maximum with zero, and stores the whole block in one
  piece. Hence the entry the step leaves at block index y is

      max (((x0 y + b0 ch) + (x1 y + b1 ch)) + cb ch) 0,   ch the last coordinate of y,

  stated here for arbitrary loaded blocks.
-/
import proofs.«102683_j58737972740836_2_alg».proof.Proof.Gen.KernelIdeal.Value

noncomputable section

namespace Cert.KernelIdeal.BlockValue

open Cert.KernelIdeal Cert.KernelIdeal.Gen Cert.KernelIdeal.Value Idealize.ShloMosaic Idealize.ShloMosaic.TcCoe Idealize.SL.Sem

variable {F : FTy → Type} [FloatOps F]

theorem zero_off4 : (![0, 0, 0, 0] : Fin 4 → Nat) = fun _ => 0 := funext fun a => by fin_cases a <;> rfl
theorem zero_off1 : (![0] : Fin 1 → Nat) = fun _ => 0 := funext fun a => by fin_cases a <;> rfl

/-- The channel a block index lies in, as an index of a per-channel vector: its last coordinate. -/
abbrev blockChan (y : S2x56x56x256.Idx) : S256.Idx := fun a => match a with
  | ⟨0, _⟩ => ⟨(y 3).val, (y 3).isLt⟩

/-- The block's own entries are read where they are stored. -/
theorem own_idx0 (y : S2x56x56x256.Idx) : ix5_0 y = y :=
  funext fun a => match a with | ⟨0, _⟩ => rfl | ⟨1, _⟩ => rfl | ⟨2, _⟩ => rfl | ⟨3, _⟩ => rfl
theorem own_idx2 (y : S2x56x56x256.Idx) : ix5_2 y = y :=
  funext fun a => match a with | ⟨0, _⟩ => rfl | ⟨1, _⟩ => rfl | ⟨2, _⟩ => rfl | ⟨3, _⟩ => rfl

/-- Each spread vector is read at the entry's channel. -/
theorem chan_idx1 (y : S2x56x56x256.Idx) : ix5_1 y = blockChan y := funext fun a => match a with | ⟨0, _⟩ => rfl
theorem chan_idx3 (y : S2x56x56x256.Idx) : ix5_3 y = blockChan y := funext fun a => match a with | ⟨0, _⟩ => rfl
theorem chan_idx4 (y : S2x56x56x256.Idx) : ix5_4 y = blockChan y := funext fun a => match a with | ⟨0, _⟩ => rfl

/-- THE OUTPUT BLOCK, entry by entry, for any loaded blocks `x0`, `x1` and vectors `x2`, `x3`, `x4`. -/
theorem out_block_apply (x0 x1 : Vec F S2x56x56x256 .f32) (x2 x3 x4 : Vec F S256 .f32) (y : S2x56x56x256.Idx) :
    out0_5 x0 x1 x2 x3 x4 y = FloatOps.maximumf
      (FloatOps.addf (FloatOps.addf (FloatOps.addf (x0 y) (x2 (blockChan y))) (FloatOps.addf (x1 y) (x3 (blockChan y)))) (x4 (blockChan y)))
      (FloatOps.ofBits .f32 0x00000000#32) := by
  unfold out0_5
  simp only [View.ld_unit_zero (S := S256) zero_off1, View.ld_unit_zero (S := S2x56x56x256) zero_off4]
  refine (canon5_eq x0 x2 x1 x3 x4 y).trans ?_
  show FloatOps.maximumf (FloatOps.addf (FloatOps.addf (FloatOps.addf (x0 (ix5_0 y)) (x2 (ix5_1 y))) (FloatOps.addf (x1 (ix5_2 y)) (x3 (ix5_3 y)))) (x4 (ix5_4 y))) (FloatOps.ofBits .f32 0x00000000#32) = _
  rw [own_idx0, own_idx2, chan_idx1, chan_idx3, chan_idx4]

end Cert.KernelIdeal.BlockValue

end
-- ==== Proof.KernelArray.lean ====
/-
  From the grid steps' blocks to the whole result array.

  The grid has 16 steps. Step t holds batch rows 2t and 2t + 1 of each of the two arrays and of the result — the block
  with index (t, 0, 0, 0) of shape [2, 56, 56, 256] — and the three per-channel vectors whole. So entry j of a step's
  array block is the array at the same place as entry j of its result block, and a vector read at j's channel is the
  vector at that place's channel: what step t writes back is block t of `Cert.BiasedSum.biasedSumRelu` of the five
  arguments. Batch row r lies in the block of step r / 2, the 16 blocks cover the array, and the result array ends
  holding that function everywhere.
-/
import proofs.«102683_j58737972740836_2_alg».proof.Proof.KernelBlock
import proofs.«102683_j58737972740836_2_alg».proof.Proof.BiasedSum
import Idealize.ShloMosaic.Lib.Pipeline.Value

noncomputable section

namespace Cert.KernelIdeal.ArrayValue

open Cert.KernelIdeal Cert.KernelIdeal.Gen Cert.KernelIdeal.Value Cert.KernelIdeal.BlockValue Cert.BiasedSum
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The three big windows at step `t` all sit at block (t, 0, 0, 0) (decided over the 16 steps). -/
theorem block_index : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_5.index t (0 : Fin 4) = t.val ∧ win0_5.index t (1 : Fin 4) = 0 ∧ win0_5.index t (2 : Fin 4) = 0 ∧ win0_5.index t (3 : Fin 4) = 0) :=
  (by decide +kernel : ∀ t : Fin grid0.N, _)

/-- The three vector windows always sit at block 0: each step holds the whole vector. -/
theorem vector_index : ∀ t : Fin cfg0.N,
    win0_2.index t (0 : Fin 1) = 0 ∧ win0_3.index t (0 : Fin 1) = 0 ∧ win0_4.index t (0 : Fin 1) = 0 :=
  (by decide +kernel : ∀ t : Fin grid0.N, _)

/-- Entry `j` of step `t`'s block of the first array is the array where entry `j` of the result block lies. -/
theorem first_block_apply (c : Dev nD) (t : Fin cfg0.N) (j : S2x56x56x256.Idx) :
    (iblk m c 0 t : Vec F S2x56x56x256 .f32) j = (V m c main_arg0 : S32x56x56x256.Idx → Elt F .f32) (((cfg0.win 5).blk t).view.emb j) := by
  obtain ⟨⟨a0, a1, a2, a3⟩, -, ⟨o0, o1, o2, o3⟩⟩ := block_index t
  show V m c main_arg0 (((cfg0.win 0).blk t).view.emb j) = V m c main_arg0 (((cfg0.win 5).blk t).view.emb j)
  have h : ((cfg0.win 0).blk t).view.emb j = ((cfg0.win 5).blk t).view.emb j := by
    funext a; apply Fin.ext
    match a with
    | ⟨0, _⟩ => show win0_0.index t (0 : Fin 4) * 2 + 1 * (j 0).val = win0_5.index t (0 : Fin 4) * 2 + 1 * (j 0).val; omega
    | ⟨1, _⟩ => show win0_0.index t (1 : Fin 4) * 56 + 1 * (j 1).val = win0_5.index t (1 : Fin 4) * 56 + 1 * (j 1).val; omega
    | ⟨2, _⟩ => show win0_0.index t (2 : Fin 4) * 56 + 1 * (j 2).val = win0_5.index t (2 : Fin 4) * 56 + 1 * (j 2).val; omega
    | ⟨3, _⟩ => show win0_0.index t (3 : Fin 4) * 256 + 1 * (j 3).val = win0_5.index t (3 : Fin 4) * 256 + 1 * (j 3).val; omega
  rw [h]

/-- The same for the second array. -/
theorem second_block_apply (c : Dev nD) (t : Fin cfg0.N) (j : S2x56x56x256.Idx) :
    (iblk m c 1 t : Vec F S2x56x56x256 .f32) j = (V m c main_arg1 : S32x56x56x256.Idx → Elt F .f32) (((cfg0.win 5).blk t).view.emb j) := by
  obtain ⟨-, ⟨a0, a1, a2, a3⟩, ⟨o0, o1, o2, o3⟩⟩ := block_index t
  show V m c main_arg1 (((cfg0.win 1).blk t).view.emb j) = V m c main_arg1 (((cfg0.win 5).blk t).view.emb j)
  have h : ((cfg0.win 1).blk t).view.emb j = ((cfg0.win 5).blk t).view.emb j := by
    funext a; apply Fin.ext
    match a with
    | ⟨0, _⟩ => show win0_1.index t (0 : Fin 4) * 2 + 1 * (j 0).val = win0_5.index t (0 : Fin 4) * 2 + 1 * (j 0).val; omega
    | ⟨1, _⟩ => show win0_1.index t (1 : Fin 4) * 56 + 1 * (j 1).val = win0_5.index t (1 : Fin 4) * 56 + 1 * (j 1).val; omega
    | ⟨2, _⟩ => show win0_1.index t (2 : Fin 4) * 56 + 1 * (j 2).val = win0_5.index t (2 : Fin 4) * 56 + 1 * (j 2).val; omega
    | ⟨3, _⟩ => show win0_1.index t (3 : Fin 4) * 256 + 1 * (j 3).val = win0_5.index t (3 : Fin 4) * 256 + 1 * (j 3).val; omega
  rw [h]

/-- Step `t`'s copy of the first bias vector, read at `j`'s channel, is the vector at the channel of the place where
    entry `j` of the result block lies. -/
theorem first_bias_apply (c : Dev nD) (t : Fin cfg0.N) (j : S2x56x56x256.Idx) :
    (iblk m c 2 t : Vec F S256 .f32) (blockChan j) = (V m c main_arg2 : S256.Idx → Elt F .f32) (chanOf (((cfg0.win 5).blk t).view.emb j)) := by
  obtain ⟨v2, v3, v4⟩ := vector_index t
  obtain ⟨-, -, ⟨o0, o1, o2, o3⟩⟩ := block_index t
  show V m c main_arg2 (((cfg0.win 2).blk t).view.emb (blockChan j)) = V m c main_arg2 (chanOf (((cfg0.win 5).blk t).view.emb j))
  have h : ((cfg0.win 2).blk t).view.emb (blockChan j) = chanOf (((cfg0.win 5).blk t).view.emb j) := by
    funext a; apply Fin.ext
    match a with
    | ⟨0, _⟩ => show win0_2.index t (0 : Fin 1) * 256 + 1 * (j 3).val = win0_5.index t (3 : Fin 4) * 256 + 1 * (j 3).val; omega
  rw [h]

/-- The same for the second bias vector. -/
theorem second_bias_apply (c : Dev nD) (t : Fin cfg0.N) (j : S2x56x56x256.Idx) :
    (iblk m c 3 t : Vec F S256 .f32) (blockChan j) = (V m c main_arg3 : S256.Idx → Elt F .f32) (chanOf (((cfg0.win 5).blk t).view.emb j)) := by
  obtain ⟨v2, v3, v4⟩ := vector_index t
  obtain ⟨-, -, ⟨o0, o1, o2, o3⟩⟩ := block_index t
  show V m c main_arg3 (((cfg0.win 3).blk t).view.emb (blockChan j)) = V m c main_arg3 (chanOf (((cfg0.win 5).blk t).view.emb j))
  have h : ((cfg0.win 3).blk t).view.emb (blockChan j) = chanOf (((cfg0.win 5).blk t).view.emb j) := by
    funext a; apply Fin.ext
    match a with
    | ⟨0, _⟩ => show win0_3.index t (0 : Fin 1) * 256 + 1 * (j 3).val = win0_5.index t (3 : Fin 4) * 256 + 1 * (j 3).val; omega
  rw [h]

/-- The same for the shared bias vector. -/
theorem shared_bias_apply (c : Dev nD) (t : Fin cfg0.N) (j : S2x56x56x256.Idx) :
    (iblk m c 4 t : Vec F S256 .f32) (blockChan j) = (V m c main_arg4 : S256.Idx → Elt F .f32) (chanOf (((cfg0.win 5).blk t).view.emb j)) := by
  obtain ⟨v2, v3, v4⟩ := vector_index t
  obtain ⟨-, -, ⟨o0, o1, o2, o3⟩⟩ := block_index t
  show V m c main_arg4 (((cfg0.win 4).blk t).view.emb (blockChan j)) = V m c main_arg4 (chanOf (((cfg0.win 5).blk t).view.emb j))
  have h : ((cfg0.win 4).blk t).view.emb (blockChan j) = chanOf (((cfg0.win 5).blk t).view.emb j) := by
    funext a; apply Fin.ext
    match a with
    | ⟨0, _⟩ => show win0_4.index t (0 : Fin 1) * 256 + 1 * (j 3).val = win0_5.index t (3 : Fin 4) * 256 + 1 * (j 3).val; omega
  rw [h]

/-- WHAT STEP `t` WRITES BACK is block `t` of the biased sum cut at zero, of the arrays as the region finds them. -/
theorem flushed_eq (c : Dev nD) (t : Fin cfg0.N) :
    (dats m 0 c).flushed 5 t = ((cfg0.win 5).blk t).view.read (Elt F)
      (biasedSumRelu (F := F) (V m c main_arg0) (V m c main_arg1) (V m c main_arg2) (V m c main_arg3) (V m c main_arg4)) := by
  rw [flushed5]
  funext j
  show out0_5 (iblk m c 0 t) (iblk m c 1 t) (iblk m c 2 t) (iblk m c 3 t) (iblk m c 4 t) j
    = biasedSumRelu (F := F) (V m c main_arg0) (V m c main_arg1) (V m c main_arg2) (V m c main_arg3) (V m c main_arg4) (((cfg0.win 5).blk t).view.emb j)
  refine (out_block_apply (iblk m c 0 t) (iblk m c 1 t) (iblk m c 2 t) (iblk m c 3 t) (iblk m c 4 t) j).trans ?_
  rw [first_block_apply m c t j, second_block_apply m c t j, first_bias_apply m c t j, second_bias_apply m c t j,
    shared_bias_apply m c t j]
  rfl

/-- An index of the array is in step `t`'s block iff each coordinate is in the block's range on its axis. -/
theorem mem_blk (t : Fin cfg0.N) (i : S32x56x56x256.Idx) :
    i ∈ ((cfg0.win 5).blk t).view.set ↔ ∀ a : Fin 4, win0_5.index t a * S2x56x56x256.size a ≤ (i a).val ∧ (i a).val < win0_5.index t a * S2x56x56x256.size a + S2x56x56x256.size a := by
  show i ∈ ((View.whole main_v0).slice (win0_5.rect t)).set ↔ _
  rw [View.set_slice_whole, Rect.mem_set_unit]
  exact Iff.rfl

/-- Every index of the result array lies in the block of the step that holds its batch row: step (batch row) / 2. -/
theorem cover (i : S32x56x56x256.Idx) :
    ∃ t : Fin cfg0.N, (cfg0.win 5).flush t = true ∧ i ∈ ((cfg0.win 5).blk t).view.set := by
  have hi0 : (i 0).val < 32 := (i 0).isLt
  have hi1 : (i 1).val < 56 := (i 1).isLt
  have hi2 : (i 2).val < 56 := (i 2).isLt
  have hi3 : (i 3).val < 256 := (i 3).isLt
  obtain ⟨t, ht⟩ : ∃ t : Fin cfg0.N, t.val = (i 0).val / 2 :=
    ⟨⟨(i 0).val / 2, by have hN : grid0.N = 16 := N_0; show (i 0).val / 2 < grid0.N; omega⟩, rfl⟩
  obtain ⟨-, -, ⟨o0, o1, o2, o3⟩⟩ := block_index t
  refine ⟨t, flush0_5 t, ?_⟩
  rw [mem_blk]
  intro a
  match a with
  | ⟨0, _⟩ => show win0_5.index t (0 : Fin 4) * 2 ≤ (i 0).val ∧ (i 0).val < win0_5.index t (0 : Fin 4) * 2 + 2; omega
  | ⟨1, _⟩ => show win0_5.index t (1 : Fin 4) * 56 ≤ (i 1).val ∧ (i 1).val < win0_5.index t (1 : Fin 4) * 56 + 56; omega
  | ⟨2, _⟩ => show win0_5.index t (2 : Fin 4) * 56 ≤ (i 2).val ∧ (i 2).val < win0_5.index t (2 : Fin 4) * 56 + 56; omega
  | ⟨3, _⟩ => show win0_5.index t (3 : Fin 4) * 256 ≤ (i 3).val ∧ (i 3).val < win0_5.index t (3 : Fin 4) * 256 + 256; omega

/-- THE RESULT ARRAY after the run is the biased sum cut at zero of the argument arrays. -/
theorem final (c : Dev nD) : (dats m 0 c).arrAt 5 cfg0.N =
    biasedSumRelu (F := F) (m ((c : Thread nD τ).loc main_arg0)) (m ((c : Thread nD τ).loc main_arg1))
      (m ((c : Thread nD τ).loc main_arg2)) (m ((c : Thread nD τ).loc main_arg3)) (m ((c : Thread nD τ).loc main_arg4)) :=
  (dats m 0 c).arrAt_eq_of_cover 5 _ (fun t _ => flushed_eq m c t) cover

/-- The kernel's run, read: the result array at the biased sum cut at zero of the arguments, the arguments unchanged. -/
theorem run : θ_run defs (onTc (τ := τ) (main (F := F))) ⟨m, fun _ => 0, ρ⟩ fun r => ∀ c : Dev nD,
      r.2.mem ((c : Thread nD τ).loc main_v0) =
        biasedSumRelu (F := F) (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.ArrayValue

end
-- ==== Proof.lean ====
/-
  The kernel computes relu ((x0 + b0) + (x1 + b1) + cb) over f32[32, 56, 56, 256] with per-channel biases b0, b1, cb over
  f32[256], sixteen grid steps of two batch rows each; the reference computes the same expression with whole-array
  operations. Read on the extended reals both are one function of the five arguments, entry by entry,

      max (((x0 i + b0 ch) + (x1 i + b1 ch)) + cb ch) 0,   ch the channel of i

  (`Cert.BiasedSum.biasedSumRelu`): the sums are grouped alike on both sides and the zero is the same word, so the
  equality uses no law of arithmetic and no finiteness of the inputs.

  * The three frames: the kernel's, at both readings of the floats, is the pipeline's run (every block staged, the body
    run, the result block written back; the argument arrays are only read); the reference's is its run with the result
    dropped.
  * The idealization rewrote nothing, so there is nothing to preserve.
  * The kernel's result array is the function above (`Proof/KernelBlock.lean`: one step's block; `Proof/KernelArray.lean`:
    the sixteen blocks cover the array), and so is the reference's (`Proof/ReferenceValue.lean`); the arguments agree.
-/
import proofs.«102683_j58737972740836_2_alg».proof.Defs
import proofs.«102683_j58737972740836_2_alg».proof.Proof.Gen.Kernel
import proofs.«102683_j58737972740836_2_alg».proof.Proof.Gen.Kernel.Skeleton
import proofs.«102683_j58737972740836_2_alg».proof.Proof.Gen.Kernel.Launch
import proofs.«102683_j58737972740836_2_alg».proof.Proof.Gen.Kernel.Points
import proofs.«102683_j58737972740836_2_alg».proof.Proof.Gen.Kernel.Frame
import proofs.«102683_j58737972740836_2_alg».proof.Proof.Gen.KernelIdeal
import proofs.«102683_j58737972740836_2_alg».proof.Proof.Gen.KernelIdeal.Skeleton
import proofs.«102683_j58737972740836_2_alg».proof.Proof.Gen.KernelIdeal.Launch
import proofs.«102683_j58737972740836_2_alg».proof.Proof.Gen.KernelIdeal.Points
import proofs.«102683_j58737972740836_2_alg».proof.Proof.Gen.KernelIdeal.Frame
import proofs.«102683_j58737972740836_2_alg».proof.Proof.Gen.ReferenceIdeal
import proofs.«102683_j58737972740836_2_alg».proof.Proof.Gen.Pre_finite_inputs
import proofs.«102683_j58737972740836_2_alg».proof.Proof.Gen.KernelIdeal.Value
import proofs.«102683_j58737972740836_2_alg».proof.Proof.Gen.ReferenceIdeal.Run
import proofs.«102683_j58737972740836_2_alg».proof.Proof.Gen.ReferenceIdeal.Read
import proofs.«102683_j58737972740836_2_alg».proof.Proof.BiasedSum
import proofs.«102683_j58737972740836_2_alg».proof.Proof.ReferenceValue
import proofs.«102683_j58737972740836_2_alg».proof.Proof.KernelBlock
import proofs.«102683_j58737972740836_2_alg».proof.Proof.KernelArray
import Idealize.ShloMosaic.Adequacy
import Idealize.ShloMosaic.Init

noncomputable section

namespace Cert.Proof

open Idealize.ShloMosaic Idealize.SL.Sem Cert.Kernel

/-- The kernel as printed runs to the end and leaves its arguments as they were. -/
theorem frame_kernel : Cert.frame_Kernel :=
  fun m ρ _ => Cert.Kernel.Gen.frame m ρ

/-- So does the kernel read on the extended reals. -/
theorem frame_kernel_ideal : Cert.frame_KernelIdeal :=
  fun m ρ _ => Cert.KernelIdeal.Gen.frame m ρ

/-- The reference's run, its result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From arguments that agree, the kernel's result array and the reference's both end at the biased sum cut at zero of
    those arguments. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
